-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S64x2048x1408 : Shape := ⟨3, ![64, 2048, 1408]⟩
abbrev S64x1408x2048 : Shape := ⟨3, ![64, 1408, 2048]⟩
abbrev S64 : Shape := ⟨1, ![64]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S64x2048x1408 : S_.BroadcastsInDim S64x2048x1408 (![] : Fin 0 → Fin S64x2048x1408.rank)
  reducesTo_S64x2048x1408_S_d0_1_2 : S64x2048x1408.ReducesTo [0, 1, 2] S_
  bcast_S_S64x1408x2048 : S_.BroadcastsInDim S64x1408x2048 (![] : Fin 0 → Fin S64x1408x2048.rank)
  reducesTo_S64x1408x2048_S_d0_1_2 : S64x1408x2048.ReducesTo [0, 1, 2] S_

variable [Facts]

def fn_part1 {F : FTy → Type} [FloatOps F] (main_v13 : IVec S_ 1) (main_v16 : IVec S64x1408x2048 1) : IVec S_ 1 :=
  let main_c_5 : IVec S_ 1 := constantI S_ 1 1#1
  let main_v17 : IVec S_ 1 := (fun x v => Host.reduce IntOp.andi x v reducesTo_S64x1408x2048_S_d0_1_2 h_S_) main_v16 main_c_5
  let main_v18 : IVec S_ 1 := andi main_v13 main_v17
  main_v18

def fn {F : FTy → Type} [FloatOps F] (main_arg0 : FVec F S1024x2048 .f32) (main_arg1 : FVec F S64x2048x1408 .f32) (main_arg2 : FVec F S64x2048x1408 .f32) (main_arg3 : FVec F S64x1408x2048 .f32) (main_arg4 : IVec S64 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S64x2048x1408 .f32 := Host.absf main_arg1
  let main_cst_0 : FVec F S_ .f32 := constant S_ .f32 0x7F800000#32
  let main_v5 : FVec F S64x2048x1408 .f32 := broadcastInDim S64x2048x1408 ![] bcast_S_S64x2048x1408 main_cst_0
  let main_v6 : IVec S64x2048x1408 1 := cmpf .olt main_v4 main_v5
  let main_c_1 : IVec S_ 1 := constantI S_ 1 1#1
  let main_v7 : IVec S_ 1 := (fun x v => Host.reduce IntOp.andi x v reducesTo_S64x2048x1408_S_d0_1_2 h_S_) main_v6 main_c_1
  let main_v8 : IVec S_ 1 := andi main_v3 main_v7
  let main_v9 : FVec F S64x2048x1408 .f32 := Host.absf main_arg2
  let main_cst_2 : FVec F S_ .f32 := constant S_ .f32 0x7F800000#32
  let main_v10 : FVec F S64x2048x1408 .f32 := broadcastInDim S64x2048x1408 ![] bcast_S_S64x2048x1408 main_cst_2
  let main_v11 : IVec S64x2048x1408 1 := cmpf .olt main_v9 main_v10
  let main_c_3 : IVec S_ 1 := constantI S_ 1 1#1
  let main_v12 : IVec S_ 1 := (fun x v => Host.reduce IntOp.andi x v reducesTo_S64x2048x1408_S_d0_1_2 h_S_) main_v11 main_c_3
  let main_v13 : IVec S_ 1 := andi main_v8 main_v12
  let main_v14 : FVec F S64x1408x2048 .f32 := Host.absf main_arg3
  let main_cst_4 : FVec F S_ .f32 := constant S_ .f32 0x7F800000#32
  let main_v15 : FVec F S64x1408x2048 .f32 := broadcastInDim S64x1408x2048 ![] bcast_S_S64x1408x2048 main_cst_4
  let main_v16 : IVec S64x1408x2048 1 := cmpf .olt main_v14 main_v15
  fn_part1 (F := F) main_v13 main_v16
-- ==== Kernel.lean ====
abbrev S1024x2048 : Shape := ⟨2, ![1024, 2048]⟩
abbrev S64x2048x1408 : Shape := ⟨3, ![64, 2048, 1408]⟩
abbrev S64x1408x2048 : Shape := ⟨3, ![64, 1408, 2048]⟩
abbrev S64 : Shape := ⟨1, ![64]⟩
abbrev S64x16x2048 : Shape := ⟨3, ![64, 16, 2048]⟩
abbrev S1x16x512 : Shape := ⟨3, ![1, 16, 512]⟩
abbrev S1x512x1408 : Shape := ⟨3, ![1, 512, 1408]⟩
abbrev S1x1408x2048 : Shape := ⟨3, ![1, 1408, 2048]⟩
abbrev S1x16x2048 : Shape := ⟨3, ![1, 16, 2048]⟩
abbrev S16x1408 : Shape := ⟨2, ![16, 1408]⟩
abbrev S16x512 : Shape := ⟨2, ![16, 512]⟩
abbrev S512x1408 : Shape := ⟨2, ![512, 1408]⟩
abbrev S16x2048 : Shape := ⟨2, ![16, 2048]⟩
abbrev S16x768 : Shape := ⟨2, ![16, 768]⟩
abbrev S1x768x2048 : Shape := ⟨3, ![1, 768, 2048]⟩
abbrev S768x2048 : Shape := ⟨2, ![768, 2048]⟩
abbrev S16x640 : Shape := ⟨2, ![16, 640]⟩
abbrev S1x640x2048 : Shape := ⟨3, ![1, 640, 2048]⟩
abbrev S640x2048 : Shape := ⟨2, ![640, 2048]⟩

abbrev nBuf : Space → Nat
  | .hbm => 8
  | .vmem => 12
  | .smem => 0
  | _ => 0

abbrev bufTy : (tb : Table) → Fin (tcTables nBuf tb) → BufTy
  | .hbm, ⟨0, _⟩ => ⟨S1024x2048, .f32⟩
  | .hbm, ⟨1, _⟩ => ⟨S64x2048x1408, .f32⟩
  | .hbm, ⟨2, _⟩ => ⟨S64x2048x1408, .f32⟩
  | .hbm, ⟨3, _⟩ => ⟨S64x1408x2048, .f32⟩
  | .hbm, ⟨4, _⟩ => ⟨S64, .i32⟩
  | .hbm, ⟨5, _⟩ => ⟨S64x16x2048, .f32⟩
  | .hbm, ⟨6, _⟩ => ⟨S64x16x2048, .f32⟩
  | .hbm, ⟨7, _⟩ => ⟨S1024x2048, .f32⟩
  | .local _ .vmem, ⟨0, _⟩ => ⟨S1x16x512, .f32⟩
  | .local _ .vmem, ⟨1, _⟩ => ⟨S1x16x512, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x1408x2048, .f32⟩
  | .local _ .vmem, ⟨7, _⟩ => ⟨S1x1408x2048, .f32⟩
  | .local _ .vmem, ⟨8, _⟩ => ⟨S1x16x2048, .f32⟩
  | .local _ .vmem, ⟨9, _⟩ => ⟨S1x16x2048, .f32⟩
  | .local _ .vmem, ⟨10, _⟩ => ⟨S16x1408, .f32⟩
  | .local _ .vmem, ⟨11, _⟩ => ⟨S16x1408, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_18 : BitVec 32 := 0#32
  let v26 : BitVec 1 := Scalar.cmpi .ne v25 c0_i32_18
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1024x2048_S64x16x2048 : S1024x2048.ShapeCasts S64x16x2048
  inb_S16x1408_S16x1408_0_0 : ∀ a, (![0, 0] : Fin 2 → Nat) a + S16x1408.size a ≤ S16x1408.size a
  h_S16x1408 : 0 < S16x1408.numel
  shapeCasts_S16x1408_S16x1408 : S16x1408.ShapeCasts S16x1408
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  bitsLt_bf16_f32 : FTy.bits .bf16 < FTy.bits .f32
  inb_S1x512x1408_S1x512x1408_0_0_0 : ∀ a, (![0, 0, 0] : Fin 3 → Nat) a + S1x512x1408.size a ≤ S1x512x1408.size a
  h_S1x512x1408 : 0 < S1x512x1408.numel
  shapeCasts_S1x512x1408_S512x1408 : S1x512x1408.ShapeCasts S512x1408
  slices_S16x1408_o0_0_S16x768 : S16x1408.Slices ![0, 0] S16x768
  inb_S1x1408x2048_S1x768x2048_0_0_0 : ∀ a, (![0, 0, 0] : Fin 3 → Nat) a + S1x768x2048.size a ≤ S1x1408x2048.size a
  h_S1x768x2048 : 0 < S1x768x2048.numel
  shapeCasts_S1x768x2048_S768x2048 : S1x768x2048.ShapeCasts S768x2048
  slices_S16x1408_o0_768_S16x640 : S16x1408.Slices ![0, 768] S16x640
  inb_S1x1408x2048_S1x640x2048_0_768_0 : ∀ a, (![0, 768, 0] : Fin 3 → Nat) a + S1x640x2048.size a ≤ S1x1408x2048.size a
  h_S1x640x2048 : 0 < S1x640x2048.numel
  shapeCasts_S1x640x2048_S640x2048 : S1x640x2048.ShapeCasts S640x2048
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  shapeCasts_S16x2048_S1x16x2048 : S16x2048.ShapeCasts S1x16x2048
  shapeCasts_S64x16x2048_S1024x2048 : S64x16x2048.ShapeCasts S1024x2048
  dot_S16x512_S512x1408_S16x1408_1_0_0_1_n_n_wf : DotDims.WF S16x512 S512x1408 S16x1408 [1] [0] [0] [1] [] []
  dot_S16x768_S768x2048_S16x2048_1_0_0_1_n_n_wf : DotDims.WF S16x768 S768x2048 S16x2048 [1] [0] [0] [1] [] []
  dot_S16x640_S640x2048_S16x2048_1_0_0_1_n_n_wf : DotDims.WF S16x640 S640x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S64x16x2048.size a
  hwx0_0 : ∀ i : grid0.Coords, EltTy.bits .f32 = 32 ∨ (Rect.block (s := S64x16x2048) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1408.size a ≤ S64x2048x1408.size a
  hwx0_1 : ∀ i : grid0.Coords, EltTy.bits .f32 = 32 ∨ (Rect.block (s := S64x2048x1408) S1x512x1408.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1408.size a ≤ S64x2048x1408.size a
  hwx0_2 : ∀ i : grid0.Coords, EltTy.bits .f32 = 32 ∨ (Rect.block (s := S64x2048x1408) S1x512x1408.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1408x2048.size a ≤ S64x1408x2048.size a
  hwx0_3 : ∀ i : grid0.Coords, EltTy.bits .f32 = 32 ∨ (Rect.block (s := S64x1408x2048) S1x1408x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x2048.size a ≤ S64x16x2048.size a
  hwx0_4 : ∀ i : grid0.Coords, EltTy.bits .f32 = 32 ∨ (Rect.block (s := S64x16x2048) S1x16x2048.size (cc0_transform_4 i) (hinb0_4 i)).WholeWords (EltTy.packing .f32)

variable [Facts₀]

def dot_S16x512_S512x1408_S16x1408_1_0_0_1_n_n : DotDims S16x512 S512x1408 S16x1408 where
  lhsContracting := [1]
  rhsContracting := [0]
  lhsNonContracting := [0]
  rhsNonContracting := [1]
  lhsBatch := []
  rhsBatch := []
  wf := dot_S16x512_S512x1408_S16x1408_1_0_0_1_n_n_wf
def dot_S16x768_S768x2048_S16x2048_1_0_0_1_n_n : DotDims S16x768 S768x2048 S16x2048 where
  lhsContracting := [1]
  rhsContracting := [0]
  lhsNonContracting := [0]
  rhsNonContracting := [1]
  lhsBatch := []
  rhsBatch := []
  wf := dot_S16x768_S768x2048_S16x2048_1_0_0_1_n_n_wf
def dot_S16x640_S640x2048_S16x2048_1_0_0_1_n_n : DotDims S16x640 S640x2048 S16x2048 where
  lhsContracting := [1]
  rhsContracting := [0]
  lhsNonContracting := [0]
  rhsNonContracting := [1]
  lhsBatch := []
  rhsBatch := []
  wf := dot_S16x640_S640x2048_S16x2048_1_0_0_1_n_n_wf

abbrev win0_0 : Pipeline.Window sig grid0 :=
  Pipeline.Window.ofSpec (Memref.whole main_v0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1408x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x2048 : Shape := ⟨2, ![1024, 2048]⟩
abbrev S64x2048x1408 : Shape := ⟨3, ![64, 2048, 1408]⟩
abbrev S64x1408x2048 : Shape := ⟨3, ![64, 1408, 2048]⟩
abbrev S64 : Shape := ⟨1, ![64]⟩
abbrev S64x16x2048 : Shape := ⟨3, ![64, 16, 2048]⟩
abbrev S64x16x1408 : Shape := ⟨3, ![64, 16, 1408]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S64x2048x1408, .f32⟩
  | .hbm, ⟨2, _⟩ => ⟨S64x2048x1408, .f32⟩
  | .hbm, ⟨3, _⟩ => ⟨S64x1408x2048, .f32⟩
  | .hbm, ⟨4, _⟩ => ⟨S64, .i32⟩
  | .hbm, ⟨5, _⟩ => ⟨S64x16x2048, .f32⟩
  | .hbm, ⟨6, _⟩ => ⟨S64x16x1408, .f32⟩
  | .hbm, ⟨7, _⟩ => ⟨S64x16x1408, .f32⟩
  | .hbm, ⟨8, _⟩ => ⟨S64x16x1408, .f32⟩
  | .hbm, ⟨9, _⟩ => ⟨S64x16x1408, .f32⟩
  | .hbm, ⟨10, _⟩ => ⟨S_, .f32⟩
  | .hbm, ⟨11, _⟩ => ⟨S64x16x1408, .f32⟩
  | .hbm, ⟨12, _⟩ => ⟨S64x16x1408, .f32⟩
  | .hbm, ⟨13, _⟩ => ⟨S_, .f32⟩
  | .hbm, ⟨14, _⟩ => ⟨S64x16x1408, .f32⟩
  | .hbm, ⟨15, _⟩ => ⟨S64x16x1408, .f32⟩
  | .hbm, ⟨16, _⟩ => ⟨S64x16x1408, .f32⟩
  | .hbm, ⟨17, _⟩ => ⟨S64x16x1408, .f32⟩
  | .hbm, ⟨18, _⟩ => ⟨S64x16x2048, .f32⟩
  | .hbm, ⟨19, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S1024x2048_S64x16x2048 : S1024x2048.ShapeCasts S64x16x2048
  bcast_S_S64x16x1408 : S_.BroadcastsInDim S64x16x1408 (![] : Fin 0 → Fin S64x16x1408.rank)
  shapeCasts_S64x16x2048_S1024x2048 : S64x16x2048.ShapeCasts S1024x2048
  dot_S64x16x2048_S64x2048x1408_S64x16x1408_2_1_1_2_0_0_wf : DotDims.WF S64x16x2048 S64x2048x1408 S64x16x1408 [2] [1] [1] [2] [0] [0]
  dot_S64x16x1408_S64x1408x2048_S64x16x2048_2_1_1_2_0_0_wf : DotDims.WF S64x16x1408 S64x1408x2048 S64x16x2048 [2] [1] [1] [2] [0] [0]

variable [Facts₀]

def dot_S64x16x2048_S64x2048x1408_S64x16x1408_2_1_1_2_0_0 : DotDims S64x16x2048 S64x2048x1408 S64x16x1408 where
  lhsContracting := [2]
  rhsContracting := [1]
  lhsNonContracting := [1]
  rhsNonContracting := [2]
  lhsBatch := [0]
  rhsBatch := [0]
  wf := dot_S64x16x2048_S64x2048x1408_S64x16x1408_2_1_1_2_0_0_wf
def dot_S64x16x1408_S64x1408x2048_S64x16x2048_2_1_1_2_0_0 : DotDims S64x16x1408 S64x1408x2048 S64x16x2048 where
  lhsContracting := [2]
  rhsContracting := [1]
  lhsNonContracting := [1]
  rhsNonContracting := [2]
  lhsBatch := [0]
  rhsBatch := [0]
  wf := dot_S64x16x1408_S64x1408x2048_S64x16x2048_2_1_1_2_0_0_wf

class Facts : Prop extends Facts₀ where

variable [Facts]
-- ==== Proof.Pieces.lean ====
/-
  What each case of the body leaves behind, as values. The body at a grid point (expert, hidden tile) adds the tile's
  partial products to the two accumulators (gate branch, up branch); at an expert's first tile the accumulators are
  zeroed first, and at its last tile the gated activation is formed and multiplied by the down weights, in two chunks of
  768 and 640 intermediate features, into the output block. Read back, every store covers its whole buffer, so what a
  buffer holds afterwards is the last store's value with the loads replaced by what was loaded.
-/
import proofs.«146466_j70300024701273_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first 768 rows of an expert's down block, as the body loads them. -/
abbrev downLo (x3 : Vec F S1x1408x2048 .f32) : Vec F S1x768x2048 .f32 :=
  View.ld x3 (Rect.unit (s := S1x1408x2048) ![0, 0, 0] S1x768x2048.size inb_S1x1408x2048_S1x768x2048_0_0_0)
/-- Its remaining 640 rows. -/
abbrev downHi (x3 : Vec F S1x1408x2048 .f32) : Vec F S1x640x2048 .f32 :=
  View.ld x3 (Rect.unit (s := S1x1408x2048) ![0, 768, 0] S1x640x2048.size inb_S1x1408x2048_S1x640x2048_0_768_0)

/-! ### An expert's first tile: the accumulators are the tile's products added to zero -/

theorem gate_A_0 (c : Dev nD) (i : grid0.Coords) (a2 : Memref sig .tc .vmem S1x16x512 .f32) (h2 : a2.IsWhole) (a3 : Memref sig .tc .vmem S1x512x1408 .f32) (h3 : a3.IsWhole) (a4 : Memref sig .tc .vmem S1x512x1408 .f32) (h4 : a4.IsWhole) (a5 : Memref sig .tc .vmem S1x1408x2048 .f32) (h5 : a5.IsWhole) (a6 : Memref sig .tc .vmem S1x16x2048 .f32) (h6 : a6.IsWhole) (a7 : Memref sig .tc .vmem S16x1408 .f32) (h7 : a7.IsWhole) (a8 : Memref sig .tc .vmem S16x1408 .f32) (h8 : a8.IsWhole) (hc0 : cond0_0 i) (hc1 : ¬cond0_1 i) (x0 : Vec F S1x16x512 .f32) (x1 : Vec F S1x512x1408 .f32) (x2 : Vec F S1x512x1408 .f32) (x3 : Vec F S1x1408x2048 .f32)  :
    sout0_A_0 c i a2 h2 a3 h3 a4 h4 a5 h5 a6 h6 a7 h7 a8 h8 hc0 hc1 x0 x1 x2 x3 = k0_pay4 x0 x1 (k0_pay1 (F := F)) := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S16x1408) hz2, View.readCov_unit_zero (S := S16x1408) _ hz2]
  simp only [View.readAt_eq_ld, h2.read_unread, h3.read_unread, View.ld_unit_zero (S := S1x16x512) hz3,
    View.ld_unit_zero (S := S1x512x1408) hz3]

theorem up_A_1 (c : Dev nD) (i : grid0.Coords) (a2 : Memref sig .tc .vmem S1x16x512 .f32) (h2 : a2.IsWhole) (a3 : Memref sig .tc .vmem S1x512x1408 .f32) (h3 : a3.IsWhole) (a4 : Memref sig .tc .vmem S1x512x1408 .f32) (h4 : a4.IsWhole) (a5 : Memref sig .tc .vmem S1x1408x2048 .f32) (h5 : a5.IsWhole) (a6 : Memref sig .tc .vmem S1x16x2048 .f32) (h6 : a6.IsWhole) (a7 : Memref sig .tc .vmem S16x1408 .f32) (h7 : a7.IsWhole) (a8 : Memref sig .tc .vmem S16x1408 .f32) (h8 : a8.IsWhole) (hc0 : cond0_0 i) (hc1 : ¬cond0_1 i) (x0 : Vec F S1x16x512 .f32) (x1 : Vec F S1x512x1408 .f32) (x2 : Vec F S1x512x1408 .f32) (x3 : Vec F S1x1408x2048 .f32)  :
    sout0_A_1 c i a2 h2 a3 h3 a4 h4 a5 h5 a6 h6 a7 h7 a8 h8 hc0 hc1 x0 x1 x2 x3 = k0_pay5 x0 x2 (k0_pay2 (F := F)) := by
  unfold sout0_A_1
  rw [View.read_writes_eq_canon _ _ _ (scover0_A_1 c i a2 h2 a3 h3 a4 h4 a5 h5 a6 h6 a7 h7 a8 h8 hc0 hc1 x0 x1 x2 x3)]
  unfold kernelRun0_A
  dsimp only
  sl_unfold_words
  rw [View.canon_cons_unit_zero (S := S16x1408) hz2, View.readCov_unit_zero (S := S16x1408) _ hz2]
  simp only [View.readAt_eq_ld, h2.read_unread, h4.read_unread, View.ld_unit_zero (S := S1x16x512) hz3,
    View.ld_unit_zero (S := S1x512x1408) hz3]

/-! ### A middle tile: the tile's products added to what the accumulators held -/

theorem gate_B_0 (c : Dev nD) (i : grid0.Coords) (a2 : Memref sig .tc .vmem S1x16x512 .f32) (h2 : a2.IsWhole) (a3 : Memref sig .tc .vmem S1x512x1408 .f32) (h3 : a3.IsWhole) (a4 : Memref sig .tc .vmem S1x512x1408 .f32) (h4 : a4.IsWhole) (a5 : Memref sig .tc .vmem S1x1408x2048 .f32) (h5 : a5.IsWhole) (a6 : Memref sig .tc .vmem S1x16x2048 .f32) (h6 : a6.IsWhole) (a7 : Memref sig .tc .vmem S16x1408 .f32) (h7 : a7.IsWhole) (a8 : Memref sig .tc .vmem S16x1408 .f32) (h8 : a8.IsWhole) (hc0 : ¬cond0_0 i) (hc1 : ¬cond0_1 i) (x0 : Vec F S1x16x512 .f32) (x1 : Vec F S1x512x1408 .f32) (x2 : Vec F S1x512x1408 .f32) (x3 : Vec F S1x1408x2048 .f32) (xs0 xs1 : Vec F S16x1408 .f32) :
    sout0_B_0 c i a2 h2 a3 h3 a4 h4 a5 h5 a6 h6 a7 h7 a8 h8 hc0 hc1 x0 x1 x2 x3 xs0 xs1 = k0_pay4 x0 x1 xs0 := by
  unfold sout0_B_0
  rw [View.read_writes_eq_canon _ _ _ (scover0_B_0 c i a2 h2 a3 h3 a4 h4 a5 h5 a6 h6 a7 h7 a8 h8 hc0 hc1 x0 x1 x2 x3 xs0 xs1)]
  unfold kernelRun0_B
  dsimp only
  sl_unfold_words
  rw [View.canon_unit_zero hz2]
  simp only [View.readAt_eq_ld, h2.read_unread, h3.read_unread, h7.read_unread, View.ld_unit_zero (S := S1x16x512) hz3,
    View.ld_unit_zero (S := S1x512x1408) hz3, View.ld_unit_zero (S := S16x1408) hz2]

theorem up_B_1 (c : Dev nD) (i : grid0.Coords) (a2 : Memref sig .tc .vmem S1x16x512 .f32) (h2 : a2.IsWhole) (a3 : Memref sig .tc .vmem S1x512x1408 .f32) (h3 : a3.IsWhole) (a4 : Memref sig .tc .vmem S1x512x1408 .f32) (h4 : a4.IsWhole) (a5 : Memref sig .tc .vmem S1x1408x2048 .f32) (h5 : a5.IsWhole) (a6 : Memref sig .tc .vmem S1x16x2048 .f32) (h6 : a6.IsWhole) (a7 : Memref sig .tc .vmem S16x1408 .f32) (h7 : a7.IsWhole) (a8 : Memref sig .tc .vmem S16x1408 .f32) (h8 : a8.IsWhole) (hc0 : ¬cond0_0 i) (hc1 : ¬cond0_1 i) (x0 : Vec F S1x16x512 .f32) (x1 : Vec F S1x512x1408 .f32) (x2 : Vec F S1x512x1408 .f32) (x3 : Vec F S1x1408x2048 .f32) (xs0 xs1 : Vec F S16x1408 .f32) :
    sout0_B_1 c i a2 h2 a3 h3 a4 h4 a5 h5 a6 h6 a7 h7 a8 h8 hc0 hc1 x0 x1 x2 x3 xs0 xs1 = k0_pay5 x0 x2 xs1 := by
  unfold sout0_B_1
  rw [View.read_writes_eq_canon _ _ _ (scover0_B_1 c i a2 h2 a3 h3 a4 h4 a5 h5 a6 h6 a7 h7 a8 h8 hc0 hc1 x0 x1 x2 x3 xs0 xs1)]
  unfold kernelRun0_B
  dsimp only
  sl_unfold_words
  rw [View.canon_unit_zero hz2]
  simp only [View.readAt_eq_ld, h2.read_unread, h4.read_unread, h8.read_unread, View.ld_unit_zero (S := S1x16x512) hz3,
    View.ld_unit_zero (S := S1x512x1408) hz3, View.ld_unit_zero (S := S16x1408) hz2]

/-! ### An expert's last tile: the same for the accumulators, and the output block from the finished accumulators -/

theorem gate_C_0 (c : Dev nD) (i : grid0.Coords) (a2 : Memref sig .tc .vmem S1x16x512 .f32) (h2 : a2.IsWhole) (a3 : Memref sig .tc .vmem S1x512x1408 .f32) (h3 : a3.IsWhole) (a4 : Memref sig .tc .vmem S1x512x1408 .f32) (h4 : a4.IsWhole) (a5 : Memref sig .tc .vmem S1x1408x2048 .f32) (h5 : a5.IsWhole) (a6 : Memref sig .tc .vmem S1x16x2048 .f32) (h6 : a6.IsWhole) (a7 : Memref sig .tc .vmem S16x1408 .f32) (h7 : a7.IsWhole) (a8 : Memref sig .tc .vmem S16x1408 .f32) (h8 : a8.IsWhole) (hc0 : ¬cond0_0 i) (hc1 : cond0_1 i) (x0 : Vec F S1x16x512 .f32) (x1 : Vec F S1x512x1408 .f32) (x2 : Vec F S1x512x1408 .f32) (x3 : Vec F S1x1408x2048 .f32) (xs0 xs1 : Vec F S16x1408 .f32) :
    sout0_C_0 c i a2 h2 a3 h3 a4 h4 a5 h5 a6 h6 a7 h7 a8 h8 hc0 hc1 x0 x1 x2 x3 xs0 xs1 = k0_pay4 x0 x1 xs0 := by
  unfold sout0_C_0
  rw [View.read_writes_eq_canon _ _ _ (scover0_C_0 c i a2 h2 a3 h3 a4 h4 a5 h5 a6 h6 a7 h7 a8 h8 hc0 hc1 x0 x1 x2 x3 xs0 xs1)]
  unfold kernelRun0_C
  dsimp only
  sl_unfold_words
  rw [View.canon_unit_zero hz2]
  simp only [View.readAt_eq_ld, h2.read_unread, h3.read_unread, h7.read_unread, View.ld_unit_zero (S := S1x16x512) hz3,
    View.ld_unit_zero (S := S1x512x1408) hz3, View.ld_unit_zero (S := S16x1408) hz2]

theorem up_C_1 (c : Dev nD) (i : grid0.Coords) (a2 : Memref sig .tc .vmem S1x16x512 .f32) (h2 : a2.IsWhole) (a3 : Memref sig .tc .vmem S1x512x1408 .f32) (h3 : a3.IsWhole) (a4 : Memref sig .tc .vmem S1x512x1408 .f32) (h4 : a4.IsWhole) (a5 : Memref sig .tc .vmem S1x1408x2048 .f32) (h5 : a5.IsWhole) (a6 : Memref sig .tc .vmem S1x16x2048 .f32) (h6 : a6.IsWhole) (a7 : Memref sig .tc .vmem S16x1408 .f32) (h7 : a7.IsWhole) (a8 : Memref sig .tc .vmem S16x1408 .f32) (h8 : a8.IsWhole) (hc0 : ¬cond0_0 i) (hc1 : cond0_1 i) (x0 : Vec F S1x16x512 .f32) (x1 : Vec F S1x512x1408 .f32) (x2 : Vec F S1x512x1408 .f32) (x3 : Vec F S1x1408x2048 .f32) (xs0 xs1 : Vec F S16x1408 .f32) :
    sout0_C_1 c i a2 h2 a3 h3 a4 h4 a5 h5 a6 h6 a7 h7 a8 h8 hc0 hc1 x0 x1 x2 x3 xs0 xs1 = k0_pay5 x0 x2 xs1 := by
  unfold sout0_C_1
  rw [View.read_writes_eq_canon _ _ _ (scover0_C_1 c i a2 h2 a3 h3 a4 h4 a5 h5 a6 h6 a7 h7 a8 h8 hc0 hc1 x0 x1 x2 x3 xs0 xs1)]
  unfold kernelRun0_C
  dsimp only
  sl_unfold_words
  rw [View.canon_unit_zero hz2]
  simp only [View.readAt_eq_ld, h2.read_unread, h4.read_unread, h8.read_unread, View.ld_unit_zero (S := S1x16x512) hz3,
    View.ld_unit_zero (S := S1x512x1408) hz3, View.ld_unit_zero (S := S16x1408) hz2]

theorem out_C_4 (c : Dev nD) (i : grid0.Coords) (a2 : Memref sig .tc .vmem S1x16x512 .f32) (h2 : a2.IsWhole) (a3 : Memref sig .tc .vmem S1x512x1408 .f32) (h3 : a3.IsWhole) (a4 : Memref sig .tc .vmem S1x512x1408 .f32) (h4 : a4.IsWhole) (a5 : Memref sig .tc .vmem S1x1408x2048 .f32) (h5 : a5.IsWhole) (a6 : Memref sig .tc .vmem S1x16x2048 .f32) (h6 : a6.IsWhole) (a7 : Memref sig .tc .vmem S16x1408 .f32) (h7 : a7.IsWhole) (a8 : Memref sig .tc .vmem S16x1408 .f32) (h8 : a8.IsWhole) (hc0 : ¬cond0_0 i) (hc1 : cond0_1 i) (x0 : Vec F S1x16x512 .f32) (x1 : Vec F S1x512x1408 .f32) (x2 : Vec F S1x512x1408 .f32) (x3 : Vec F S1x1408x2048 .f32) (xs0 xs1 : Vec F S16x1408 .f32) :
    out0_C_4 c i a2 h2 a3 h3 a4 h4 a5 h5 a6 h6 a7 h7 a8 h8 hc0 hc1 x0 x1 x2 x3 xs0 xs1 = k0_pay6 (k0_pay4 x0 x1 xs0) (k0_pay5 x0 x2 xs1) (downLo x3) (downHi x3) := by
  unfold out0_C_4
  rw [View.read_writes_eq_canon _ _ _ (cover0_C_4 c i a2 h2 a3 h3 a4 h4 a5 h5 a6 h6 a7 h7 a8 h8 hc0 hc1 x0 x1 x2 x3 xs0 xs1)]
  unfold kernelRun0_C
  dsimp only
  sl_unfold_words
  rw [View.canon_unit_zero hz3, View.readCov_unit_zero (S := S16x1408) _ hz2, View.readCov_unit_zero (S := S16x1408) _ hz2]
  simp only [View.readAt_eq_ld, h2.read_unread, h3.read_unread, h4.read_unread, h5.read_unread, h7.read_unread, h8.read_unread,
    View.ld_unit_zero (S := S1x16x512) hz3, View.ld_unit_zero (S := S1x512x1408) hz3, View.ld_unit_zero (S := S16x1408) hz2]

end Cert.KernelIdeal.Pieces

end
-- ==== Proof.Chain.lean ====
/-
  The accumulators and the output block, point by point, as a chain of the body's arithmetic. At an expert's first
  hidden tile each accumulator is the tile's update of the zero fill; at every later tile it is the tile's update of what
  the point before left; and at the expert's last tile the output block is the finishing step applied to the two
  accumulators just updated and the two chunks of the expert's down block.
-/
import proofs.«146466_j70300024701273_2_alg».proof.Proof.Gen.KernelIdeal.Frame
import proofs.«146466_j70300024701273_2_alg».proof.Proof.Pieces

noncomputable section

namespace Cert.KernelIdeal.Chain

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- First tile of an expert: both accumulators start from zero. -/
theorem acc_first (c : Dev nD) (t : Fin cfg0.N) (h0 : t.val % 4 = 0) :
    (outsAt0 m c t.val t.isLt).2.1 = k0_pay4 (iblk m c 0 t) (iblk m c 1 t) (k0_pay1 (F := F))
    ∧ (outsAt0 m c t.val t.isLt).2.2 = k0_pay5 (iblk m c 0 t) (iblk m c 2 t) (k0_pay2 (F := F)) := by
  have h1 : ¬t.val % 4 = 3 := by omega
  rw [outsAt0_A m c t h0 h1]
  dsimp only
  exact ⟨Pieces.gate_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
    Pieces.up_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)⟩

/-- A later tile: both accumulators continue from what the point before left. -/
theorem acc_next (c : Dev nD) (t : Fin cfg0.N) (h0 : ¬t.val % 4 = 0) :
    (outsAt0 m c t.val t.isLt).2.1 = k0_pay4 (iblk m c 0 t) (iblk m c 1 t) (outsAt0 m c (t.val - 1) (Nat.lt_of_le_of_lt (Nat.sub_le _ _) t.isLt)).2.1
    ∧ (outsAt0 m c t.val t.isLt).2.2 = k0_pay5 (iblk m c 0 t) (iblk m c 2 t) (outsAt0 m c (t.val - 1) (Nat.lt_of_le_of_lt (Nat.sub_le _ _) t.isLt)).2.2 := by
  by_cases h1 : t.val % 4 = 3
  · rw [outsAt0_C m c t h0 h1]
    dsimp only
    exact ⟨Pieces.gate_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      Pieces.up_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨Pieces.gate_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      Pieces.up_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

/-- Last tile of an expert: the output block is the finishing step of the two accumulators as this point leaves them. -/
theorem out_last (c : Dev nD) (t : Fin cfg0.N) (h1 : t.val % 4 = 3) :
    (outsAt0 m c t.val t.isLt).1
      = k0_pay6 (outsAt0 m c t.val t.isLt).2.1 (outsAt0 m c t.val t.isLt).2.2
          (Pieces.downLo (iblk m c 3 t)) (Pieces.downHi (iblk m c 3 t)) := by
  have h0 : ¬t.val % 4 = 0 := by omega
  obtain ⟨e1, e2⟩ := acc_next m c t h0
  rw [e1, e2, outsAt0_C m c t h0 h1]
  dsimp only
  exact Pieces.out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Chain

end
-- ==== Proof.Spec.lean ====
/-
  The mathematics of the grouped feed-forward block, with no program in sight.

  For each expert `e` (64 of them), each of its 16 token rows `p` and each intermediate feature `q` (1408 of them):
    gateProj e p q = ∑ₖ x[e, p, k] · gate[e, k, q]      (k over the 2048 hidden features)
    upProj   e p q = ∑ₖ x[e, p, k] · up[e, k, q]
    hidden   e p q = (gateProj · logistic gateProj) · upProj          (SiLU of the gate branch times the up branch)
  and for each output feature `h` (2048 of them)
    result e p h = ∑_q hidden e p q · down[e, q, h].

  Two regroupings of these sums are used. A projection accumulated tile by tile, 512 contraction positions at a time,
  starting from zero, is the whole sum once the fourth tile is in: finite sums over the extended reals may be split at
  any position, because addition there is commutative and associative (no finiteness is needed). And the last product,
  taken as two chunks of 768 and 640 intermediate features added to zero, is the sum over all 1408.
-/
import Idealize.ShloMosaic.Lib.ValueIdx
import Idealize.ShloMosaic.PureOps.Ideal

noncomputable section

namespace Cert.MoeSpec

open Idealize.ShloMosaic Idealize.ShloMosaic.ValueIdx

/-- Tokens grouped by expert: [expert, row, hidden feature]. -/
abbrev SX : Shape := ⟨3, ![64, 16, 2048]⟩
/-- The gate and up weights: [expert, hidden feature, intermediate feature]. -/
abbrev SW : Shape := ⟨3, ![64, 2048, 1408]⟩
/-- The down weights: [expert, intermediate feature, hidden feature]. -/
abbrev SD : Shape := ⟨3, ![64, 1408, 2048]⟩
/-- Intermediate activations: [expert, row, intermediate feature]. -/
abbrev SA : Shape := ⟨3, ![64, 16, 1408]⟩

variable (xe : SX.Idx → EReal) (w : SW.Idx → EReal)

/-- The contraction's summand at position `k` of the hidden axis (zero past the axis' end, so that it is a function
    on all naturals and partial sums are sums over ranges). -/
def term (e : Fin 64) (p : Fin 16) (q : Fin 1408) (k : ℕ) : EReal :=
  if hk : k < 2048 then xe (ix3 e p ⟨k, hk⟩) * w (ix3 e ⟨k, hk⟩ q) else 0

/-- The projection summed over the first `n` contraction positions only. -/
def partialProj (e : Fin 64) (p : Fin 16) (q : Fin 1408) (n : ℕ) : EReal :=
  ∑ k ∈ Finset.range n, term xe w e p q k

/-- The whole projection of row `(e, p)` on feature `q`. -/
def proj (j : SA.Idx) : EReal :=
  ∑ k : Fin 2048, xe (ix3 (j 0) (j 1) k) * w (ix3 (j 0) k (j 2))

theorem partialProj_zero (e : Fin 64) (p : Fin 16) (q : Fin 1408) : partialProj xe w e p q 0 = 0 :=
  Finset.sum_range_zero _

/-- All 2048 positions: the whole projection. -/
theorem partialProj_full (e : Fin 64) (p : Fin 16) (q : Fin 1408) :
    partialProj xe w e p q 2048 = proj xe w (ix3 e p q) := by
  unfold partialProj proj
  rw [Finset.sum_range]
  refine Finset.sum_congr rfl fun k _ => ?_
  unfold term
  rw [dif_pos k.isLt]

/-- Adding tile `h` (positions `512·h … 512·h + 511`) to the sum of the positions before it gives the sum of the
    positions up to the tile's end, whatever the tile's summands are called. -/
theorem partialProj_add_tile (e : Fin 64) (p : Fin 16) (q : Fin 1408) (h : ℕ) (T : Fin 512 → EReal)
    (hT : ∀ k : Fin 512, T k = term xe w e p q (512 * h + k.val)) :
    partialProj xe w e p q (512 * h) + ∑ k : Fin 512, T k = partialProj xe w e p q (512 * (h + 1)) := by
  unfold partialProj
  rw [show 512 * (h + 1) = 512 * h + 512 from by ring, Finset.sum_range_add, Finset.sum_range]
  exact congrArg _ (Finset.sum_congr rfl fun k _ => hT k)

/-- SiLU of the gate branch times the up branch. -/
def act (a b : EReal) : EReal := (a * Ideal.logistic a) * b

variable (g u : SW.Idx → EReal) (d : SD.Idx → EReal)

/-- The block's result at [expert, row, hidden feature]. -/
def out (i : SX.Idx) : EReal :=
  ∑ f : Fin 1408, act (proj xe g (ix3 (i 0) (i 1) f)) (proj xe u (ix3 (i 0) (i 1) f)) * d (ix3 (i 0) f (i 2))

/-- A sum over 1408 positions taken as zero, plus the first 768, plus the remaining 640. -/
theorem sum_two_chunks (F : Fin 1408 → EReal) :
    (0 + ∑ f : Fin 768, F ⟨f.val, by have := f.isLt; omega⟩) + ∑ f : Fin 640, F ⟨768 + f.val, by have := f.isLt; omega⟩
      = ∑ f : Fin 1408, F f := by
  rw [zero_add]
  exact (Fin.sum_univ_add (a := 768) (b := 640) F).symm

end Cert.MoeSpec

end
-- ==== Proof.Payload.lean ====
/-
  The body's arithmetic read entry by entry, over the extended reals. A block arrives with a leading axis of extent one
  for the expert; dropping it, entry (p, k) of the [16, 512] token tile is entry (0, p, k) of the block. A matrix product
  into a zero accumulator is, at entry (p, q), the sum over the contraction positions of the products. So an accumulator
  update adds, at (p, q), the sum over the tile's 512 positions; and the finishing step forms, at (p, h), zero plus the
  sum over the first 768 intermediate features plus the sum over the other 640 of the gated activation times the down
  weight. Changes of float format are the identity here.
-/
import proofs.«146466_j70300024701273_2_alg».proof.Proof.Gen.KernelIdeal.Skeleton
import proofs.«146466_j70300024701273_2_alg».proof.Proof.Spec
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ### Dropping a block's leading unit axis -/

theorem drop_tokens {α : Type} (x : S1x16x512.Idx → α) (p : Fin 16) (q : Fin 512) :
    shapeCast S16x512 x shapeCasts_S1x16x512_S16x512 (ix2 p q) = x (ix3 (0 : Fin 1) p q) :=
  shapeCast_apply x shapeCasts_S1x16x512_S16x512 (ix2 p q) (ix3 (0 : Fin 1) p q) (by
    rw [Shape.rowMajor_val_three, Shape.rowMajor_val_two]
    show ((0 : ℕ) * 16 + p.val) * 512 + q.val = p.val * 512 + q.val
    omega)

theorem drop_weights {α : Type} (x : S1x512x1408.Idx → α) (p : Fin 512) (q : Fin 1408) :
    shapeCast S512x1408 x shapeCasts_S1x512x1408_S512x1408 (ix2 p q) = x (ix3 (0 : Fin 1) p q) :=
  shapeCast_apply x shapeCasts_S1x512x1408_S512x1408 (ix2 p q) (ix3 (0 : Fin 1) p q) (by
    rw [Shape.rowMajor_val_three, Shape.rowMajor_val_two]
    show ((0 : ℕ) * 512 + p.val) * 1408 + q.val = p.val * 1408 + q.val
    omega)

theorem drop_downLo {α : Type} (x : S1x768x2048.Idx → α) (p : Fin 768) (q : Fin 2048) :
    shapeCast S768x2048 x shapeCasts_S1x768x2048_S768x2048 (ix2 p q) = x (ix3 (0 : Fin 1) p q) :=
  shapeCast_apply x shapeCasts_S1x768x2048_S768x2048 (ix2 p q) (ix3 (0 : Fin 1) p q) (by
    rw [Shape.rowMajor_val_three, Shape.rowMajor_val_two]
    show ((0 : ℕ) * 768 + p.val) * 2048 + q.val = p.val * 2048 + q.val
    omega)

theorem drop_downHi {α : Type} (x : S1x640x2048.Idx → α) (p : Fin 640) (q : Fin 2048) :
    shapeCast S640x2048 x shapeCasts_S1x640x2048_S640x2048 (ix2 p q) = x (ix3 (0 : Fin 1) p q) :=
  shapeCast_apply x shapeCasts_S1x640x2048_S640x2048 (ix2 p q) (ix3 (0 : Fin 1) p q) (by
    rw [Shape.rowMajor_val_three, Shape.rowMajor_val_two]
    show ((0 : ℕ) * 640 + p.val) * 2048 + q.val = p.val * 2048 + q.val
    omega)

/-- Putting the unit axis back on the [16, 2048] result. -/
theorem add_unit {α : Type} (x : S16x2048.Idx → α) (p : Fin 16) (h : Fin 2048) :
    shapeCast S1x16x2048 x shapeCasts_S16x2048_S1x16x2048 (ix3 (0 : Fin 1) p h) = x (ix2 p h) :=
  shapeCast_apply x shapeCasts_S16x2048_S1x16x2048 (ix3 (0 : Fin 1) p h) (ix2 p h) (by
    rw [Shape.rowMajor_val_three, Shape.rowMajor_val_two]
    show p.val * 2048 + h.val = ((0 : ℕ) * 16 + p.val) * 2048 + h.val
    omega)

/-! ### The three matrix products, entry by entry -/

theorem mm_tile_lhs0 (i : S16x1408.Idx) (k : dot_S16x512_S512x1408_S16x1408_1_0_0_1_n_n.contr.Idx) : (dot_S16x512_S512x1408_S16x1408_1_0_0_1_n_n.lhsIdx i k 0).val = (i 0).val := by
  unfold DotDims.lhsIdx
  rw [dif_neg (show ¬(0 : Fin S16x512.rank) ∈ dot_S16x512_S512x1408_S16x1408_1_0_0_1_n_n.lhsBatch by decide), dif_pos (show (0 : Fin S16x512.rank) ∈ dot_S16x512_S512x1408_S16x1408_1_0_0_1_n_n.lhsNonContracting by decide)]
  rfl
theorem mm_tile_rhs1 (i : S16x1408.Idx) (k : dot_S16x512_S512x1408_S16x1408_1_0_0_1_n_n.contr.Idx) : (dot_S16x512_S512x1408_S16x1408_1_0_0_1_n_n.rhsIdx i k 1).val = (i 1).val := by
  unfold DotDims.rhsIdx
  rw [dif_neg (show ¬(1 : Fin S512x1408.rank) ∈ dot_S16x512_S512x1408_S16x1408_1_0_0_1_n_n.rhsBatch by decide), dif_pos (show (1 : Fin S512x1408.rank) ∈ dot_S16x512_S512x1408_S16x1408_1_0_0_1_n_n.rhsNonContracting by decide)]
  rfl
/-- A [16, 512] by [512, 1408] matrix product into zero, entry (p, q): the sum over the 512 contraction positions. -/
theorem mm_tile (l : FVec Ideal S16x512 .bf16) (r : FVec Ideal S512x1408 .bf16) (p : Fin 16) (q : Fin 1408) :
    matmul dot_S16x512_S512x1408_S16x1408_1_0_0_1_n_n none l r (constant (F := Ideal) S16x1408 .f32 0x00000000#32) (ix2 p q)
      = ∑ k : Fin 512, l (ix2 p k) * r (ix2 k q) := by
  show FloatOps.matmul dot_S16x512_S512x1408_S16x1408_1_0_0_1_n_n none l r (constant (F := Ideal) S16x1408 .f32 0x00000000#32) (ix2 p q) = _
  rw [Ideal.matmul_constant_zero_apply, ← Equiv.sum_comp (contrEquiv1 dot_S16x512_S512x1408_S16x1408_1_0_0_1_n_n 512 rfl rfl).symm]
  refine Finset.sum_congr rfl fun k _ => ?_
  have hk := contrEquiv1_symm_val dot_S16x512_S512x1408_S16x1408_1_0_0_1_n_n 512 rfl rfl k
  have el : dot_S16x512_S512x1408_S16x1408_1_0_0_1_n_n.lhsIdx (ix2 p q) ((contrEquiv1 dot_S16x512_S512x1408_S16x1408_1_0_0_1_n_n 512 rfl rfl).symm k) = ix2 p k := funext fun a => Fin.ext (by
    match a with
    | ⟨0, _⟩ => exact mm_tile_lhs0 _ _
    | ⟨1, _⟩ => exact (dot_S16x512_S512x1408_S16x1408_1_0_0_1_n_n.lhsIdx_val_of_single rfl _ _).trans hk)
  have er : dot_S16x512_S512x1408_S16x1408_1_0_0_1_n_n.rhsIdx (ix2 p q) ((contrEquiv1 dot_S16x512_S512x1408_S16x1408_1_0_0_1_n_n 512 rfl rfl).symm k) = ix2 k q := funext fun a => Fin.ext (by
    match a with
    | ⟨0, _⟩ => exact (dot_S16x512_S512x1408_S16x1408_1_0_0_1_n_n.rhsIdx_val_of_single rfl _ _).trans hk
    | ⟨1, _⟩ => exact mm_tile_rhs1 _ _)
  exact congrArg₂ (· * ·) (congrArg l el) (congrArg r er)

theorem mm_lo_lhs0 (i : S16x2048.Idx) (k : dot_S16x768_S768x2048_S16x2048_1_0_0_1_n_n.contr.Idx) : (dot_S16x768_S768x2048_S16x2048_1_0_0_1_n_n.lhsIdx i k 0).val = (i 0).val := by
  unfold DotDims.lhsIdx
  rw [dif_neg (show ¬(0 : Fin S16x768.rank) ∈ dot_S16x768_S768x2048_S16x2048_1_0_0_1_n_n.lhsBatch by decide), dif_pos (show (0 : Fin S16x768.rank) ∈ dot_S16x768_S768x2048_S16x2048_1_0_0_1_n_n.lhsNonContracting by decide)]
  rfl
theorem mm_lo_rhs1 (i : S16x2048.Idx) (k : dot_S16x768_S768x2048_S16x2048_1_0_0_1_n_n.contr.Idx) : (dot_S16x768_S768x2048_S16x2048_1_0_0_1_n_n.rhsIdx i k 1).val = (i 1).val := by
  unfold DotDims.rhsIdx
  rw [dif_neg (show ¬(1 : Fin S768x2048.rank) ∈ dot_S16x768_S768x2048_S16x2048_1_0_0_1_n_n.rhsBatch by decide), dif_pos (show (1 : Fin S768x2048.rank) ∈ dot_S16x768_S768x2048_S16x2048_1_0_0_1_n_n.rhsNonContracting by decide)]
  rfl
/-- A [16, 768] by [768, 2048] matrix product into zero, entry (p, q): the sum over the 768 contraction positions. -/
theorem mm_lo (l : FVec Ideal S16x768 .bf16) (r : FVec Ideal S768x2048 .bf16) (p : Fin 16) (q : Fin 2048) :
    matmul dot_S16x768_S768x2048_S16x2048_1_0_0_1_n_n none l r (constant (F := Ideal) S16x2048 .f32 0x00000000#32) (ix2 p q)
      = ∑ k : Fin 768, l (ix2 p k) * r (ix2 k q) := by
  show FloatOps.matmul dot_S16x768_S768x2048_S16x2048_1_0_0_1_n_n none l r (constant (F := Ideal) S16x2048 .f32 0x00000000#32) (ix2 p q) = _
  rw [Ideal.matmul_constant_zero_apply, ← Equiv.sum_comp (contrEquiv1 dot_S16x768_S768x2048_S16x2048_1_0_0_1_n_n 768 rfl rfl).symm]
  refine Finset.sum_congr rfl fun k _ => ?_
  have hk := contrEquiv1_symm_val dot_S16x768_S768x2048_S16x2048_1_0_0_1_n_n 768 rfl rfl k
  have el : dot_S16x768_S768x2048_S16x2048_1_0_0_1_n_n.lhsIdx (ix2 p q) ((contrEquiv1 dot_S16x768_S768x2048_S16x2048_1_0_0_1_n_n 768 rfl rfl).symm k) = ix2 p k := funext fun a => Fin.ext (by
    match a with
    | ⟨0, _⟩ => exact mm_lo_lhs0 _ _
    | ⟨1, _⟩ => exact (dot_S16x768_S768x2048_S16x2048_1_0_0_1_n_n.lhsIdx_val_of_single rfl _ _).trans hk)
  have er : dot_S16x768_S768x2048_S16x2048_1_0_0_1_n_n.rhsIdx (ix2 p q) ((contrEquiv1 dot_S16x768_S768x2048_S16x2048_1_0_0_1_n_n 768 rfl rfl).symm k) = ix2 k q := funext fun a => Fin.ext (by
    match a with
    | ⟨0, _⟩ => exact (dot_S16x768_S768x2048_S16x2048_1_0_0_1_n_n.rhsIdx_val_of_single rfl _ _).trans hk
    | ⟨1, _⟩ => exact mm_lo_rhs1 _ _)
  exact congrArg₂ (· * ·) (congrArg l el) (congrArg r er)

theorem mm_hi_lhs0 (i : S16x2048.Idx) (k : dot_S16x640_S640x2048_S16x2048_1_0_0_1_n_n.contr.Idx) : (dot_S16x640_S640x2048_S16x2048_1_0_0_1_n_n.lhsIdx i k 0).val = (i 0).val := by
  unfold DotDims.lhsIdx
  rw [dif_neg (show ¬(0 : Fin S16x640.rank) ∈ dot_S16x640_S640x2048_S16x2048_1_0_0_1_n_n.lhsBatch by decide), dif_pos (show (0 : Fin S16x640.rank) ∈ dot_S16x640_S640x2048_S16x2048_1_0_0_1_n_n.lhsNonContracting by decide)]
  rfl
theorem mm_hi_rhs1 (i : S16x2048.Idx) (k : dot_S16x640_S640x2048_S16x2048_1_0_0_1_n_n.contr.Idx) : (dot_S16x640_S640x2048_S16x2048_1_0_0_1_n_n.rhsIdx i k 1).val = (i 1).val := by
  unfold DotDims.rhsIdx
  rw [dif_neg (show ¬(1 : Fin S640x2048.rank) ∈ dot_S16x640_S640x2048_S16x2048_1_0_0_1_n_n.rhsBatch by decide), dif_pos (show (1 : Fin S640x2048.rank) ∈ dot_S16x640_S640x2048_S16x2048_1_0_0_1_n_n.rhsNonContracting by decide)]
  rfl
/-- A [16, 640] by [640, 2048] matrix product into zero, entry (p, q): the sum over the 640 contraction positions. -/
theorem mm_hi (l : FVec Ideal S16x640 .bf16) (r : FVec Ideal S640x2048 .bf16) (p : Fin 16) (q : Fin 2048) :
    matmul dot_S16x640_S640x2048_S16x2048_1_0_0_1_n_n none l r (constant (F := Ideal) S16x2048 .f32 0x00000000#32) (ix2 p q)
      = ∑ k : Fin 640, l (ix2 p k) * r (ix2 k q) := by
  show FloatOps.matmul dot_S16x640_S640x2048_S16x2048_1_0_0_1_n_n none l r (constant (F := Ideal) S16x2048 .f32 0x00000000#32) (ix2 p q) = _
  rw [Ideal.matmul_constant_zero_apply, ← Equiv.sum_comp (contrEquiv1 dot_S16x640_S640x2048_S16x2048_1_0_0_1_n_n 640 rfl rfl).symm]
  refine Finset.sum_congr rfl fun k _ => ?_
  have hk := contrEquiv1_symm_val dot_S16x640_S640x2048_S16x2048_1_0_0_1_n_n 640 rfl rfl k
  have el : dot_S16x640_S640x2048_S16x2048_1_0_0_1_n_n.lhsIdx (ix2 p q) ((contrEquiv1 dot_S16x640_S640x2048_S16x2048_1_0_0_1_n_n 640 rfl rfl).symm k) = ix2 p k := funext fun a => Fin.ext (by
    match a with
    | ⟨0, _⟩ => exact mm_hi_lhs0 _ _
    | ⟨1, _⟩ => exact (dot_S16x640_S640x2048_S16x2048_1_0_0_1_n_n.lhsIdx_val_of_single rfl _ _).trans hk)
  have er : dot_S16x640_S640x2048_S16x2048_1_0_0_1_n_n.rhsIdx (ix2 p q) ((contrEquiv1 dot_S16x640_S640x2048_S16x2048_1_0_0_1_n_n 640 rfl rfl).symm k) = ix2 k q := funext fun a => Fin.ext (by
    match a with
    | ⟨0, _⟩ => exact (dot_S16x640_S640x2048_S16x2048_1_0_0_1_n_n.rhsIdx_val_of_single rfl _ _).trans hk
    | ⟨1, _⟩ => exact mm_hi_rhs1 _ _)
  exact congrArg₂ (· * ·) (congrArg l el) (congrArg r er)

/-! ### The accumulator updates -/

/-- The gate accumulator's update at (p, q): what it held plus the tile's 512 products. -/
theorem gate_update (x0 : Vec Ideal S1x16x512 .f32) (x1 : Vec Ideal S1x512x1408 .f32) (acc : Vec Ideal S16x1408 .f32)
    (p : Fin 16) (q : Fin 1408) :
    k0_pay4 x0 x1 acc (ix2 p q) = acc (ix2 p q) + ∑ k : Fin 512, x0 (ix3 (0 : Fin 1) p k) * x1 (ix3 (0 : Fin 1) k q) := by
  unfold k0_pay4 k0_pay3
  rw [shapeCast_self]
  show acc (ix2 p q) + matmul dot_S16x512_S512x1408_S16x1408_1_0_0_1_n_n none _ _ (constant (F := Ideal) S16x1408 .f32 0x00000000#32) (ix2 p q) = _
  rw [mm_tile]
  refine congrArg (acc (ix2 p q) + ·) (Finset.sum_congr rfl fun k _ => ?_)
  exact congrArg₂ (· * ·) (drop_tokens x0 p k) (drop_weights x1 k q)

/-- The up accumulator's update: the same with the up weights' tile. -/
theorem up_update (x0 : Vec Ideal S1x16x512 .f32) (x2 : Vec Ideal S1x512x1408 .f32) (acc : Vec Ideal S16x1408 .f32)
    (p : Fin 16) (q : Fin 1408) :
    k0_pay5 x0 x2 acc (ix2 p q) = acc (ix2 p q) + ∑ k : Fin 512, x0 (ix3 (0 : Fin 1) p k) * x2 (ix3 (0 : Fin 1) k q) := by
  unfold k0_pay5 k0_pay3
  rw [shapeCast_self]
  show acc (ix2 p q) + matmul dot_S16x512_S512x1408_S16x1408_1_0_0_1_n_n none _ _ (constant (F := Ideal) S16x1408 .f32 0x00000000#32) (ix2 p q) = _
  rw [mm_tile]
  refine congrArg (acc (ix2 p q) + ·) (Finset.sum_congr rfl fun k _ => ?_)
  exact congrArg₂ (· * ·) (drop_tokens x0 p k) (drop_weights x2 k q)

/-- The zero fill of the gate accumulator. -/
theorem gate_zero (j : S16x1408.Idx) : k0_pay1 (F := Ideal) j = 0 := by
  unfold k0_pay1
  rw [shapeCast_self]
  exact Ideal.ofBits_zero_f32

/-- The zero fill of the up accumulator. -/
theorem up_zero (j : S16x1408.Idx) : k0_pay2 (F := Ideal) j = 0 := by
  unfold k0_pay2
  rw [shapeCast_self]
  exact Ideal.ofBits_zero_f32

/-! ### The finishing step -/

/-- The first 768 features of the gated activation, as the left operand of the first chunk's product. -/
theorem act_lo (a b : Vec Ideal S16x1408 .f32) (p : Fin 16) (f : Fin 768) :
    (truncf .bf16 (extractStridedSlice S16x768 (![0, 0] : Fin 2 → Nat) (mulf (mulf a (logistic a)) b : FVec Ideal S16x1408 .f32) slices_S16x1408_o0_0_S16x768) bitsLt_bf16_f32 : FVec Ideal S16x768 .bf16) (ix2 p f)
      = Cert.MoeSpec.act (a (ix2 p ⟨f.val, by have := f.isLt; omega⟩)) (b (ix2 p ⟨f.val, by have := f.isLt; omega⟩)) := by
  show extractStridedSlice S16x768 (![0, 0] : Fin 2 → Nat) (mulf (mulf a (logistic a)) b : FVec Ideal S16x1408 .f32) slices_S16x1408_o0_0_S16x768 (ix2 p f) = _
  rw [extractStridedSlice_apply (![0, 0] : Fin 2 → Nat) _ slices_S16x1408_o0_0_S16x768 (ix2 p f) (ix2 p ⟨f.val, by have := f.isLt; omega⟩)
    (fun d => by match d with | ⟨0, _⟩ => exact (Nat.zero_add _).symm | ⟨1, _⟩ => exact (Nat.zero_add _).symm)]
  rfl

/-- The other 640, as the left operand of the second chunk's. -/
theorem act_hi (a b : Vec Ideal S16x1408 .f32) (p : Fin 16) (f : Fin 640) :
    (truncf .bf16 (extractStridedSlice S16x640 (![0, 768] : Fin 2 → Nat) (mulf (mulf a (logistic a)) b : FVec Ideal S16x1408 .f32) slices_S16x1408_o0_768_S16x640) bitsLt_bf16_f32 : FVec Ideal S16x640 .bf16) (ix2 p f)
      = Cert.MoeSpec.act (a (ix2 p ⟨768 + f.val, by have := f.isLt; omega⟩)) (b (ix2 p ⟨768 + f.val, by have := f.isLt; omega⟩)) := by
  show extractStridedSlice S16x640 (![0, 768] : Fin 2 → Nat) (mulf (mulf a (logistic a)) b : FVec Ideal S16x1408 .f32) slices_S16x1408_o0_768_S16x640 (ix2 p f) = _
  rw [extractStridedSlice_apply (![0, 768] : Fin 2 → Nat) _ slices_S16x1408_o0_768_S16x640 (ix2 p f) (ix2 p ⟨768 + f.val, by have := f.isLt; omega⟩)
    (fun d => by match d with | ⟨0, _⟩ => exact (Nat.zero_add _).symm | ⟨1, _⟩ => rfl)]
  rfl

/-- The output block at (p, h): zero, plus the first chunk's 768 products, plus the second chunk's 640, of the gated
    activation of the two finished accumulators with the down weights. -/
theorem finish (a b : Vec Ideal S16x1408 .f32) (d0 : Vec Ideal S1x768x2048 .f32) (d1 : Vec Ideal S1x640x2048 .f32)
    (p : Fin 16) (h : Fin 2048) :
    k0_pay6 a b d0 d1 (ix3 (0 : Fin 1) p h)
      = (0 + ∑ f : Fin 768, Cert.MoeSpec.act (a (ix2 p ⟨f.val, by have := f.isLt; omega⟩)) (b (ix2 p ⟨f.val, by have := f.isLt; omega⟩))
            * d0 (ix3 (0 : Fin 1) f h))
        + ∑ f : Fin 640, Cert.MoeSpec.act (a (ix2 p ⟨768 + f.val, by have := f.isLt; omega⟩)) (b (ix2 p ⟨768 + f.val, by have := f.isLt; omega⟩))
            * d1 (ix3 (0 : Fin 1) f h) := by
  unfold k0_pay6
  rw [add_unit]
  show (_ + matmul dot_S16x768_S768x2048_S16x2048_1_0_0_1_n_n none _ _ (constant (F := Ideal) S16x2048 .f32 0x00000000#32) (ix2 p h))
      + matmul dot_S16x640_S640x2048_S16x2048_1_0_0_1_n_n none _ _ (constant (F := Ideal) S16x2048 .f32 0x00000000#32) (ix2 p h) = _
  rw [mm_lo, mm_hi]
  refine congrArg₂ (· + ·) (congrArg₂ (· + ·) Ideal.ofBits_zero_f32 (Finset.sum_congr rfl fun f _ => ?_)) (Finset.sum_congr rfl fun f _ => ?_)
  · exact congrArg₂ (· * ·) (act_lo a b p f) (drop_downLo d0 f h)
  · exact congrArg₂ (· * ·) (act_hi a b p f) (drop_downHi d1 f h)

end Cert.KernelIdeal.Payload

end
-- ==== Proof.Blocks.lean ====
/-
  Where the blocks sit. Grid point t stands for expert t / 4 and hidden tile t % 4. At it the token window holds rows
  of expert t / 4 restricted to hidden features 512·(t % 4) … + 511, the gate and up windows hold the matching 512 rows of
  that expert's weights, and the down and output windows hold the expert's whole [1408, 2048] and [16, 2048] blocks.
  Each block entry is therefore an entry of the whole array as the kernel finds it, at coordinates given by arithmetic.
-/
import proofs.«146466_j70300024701273_2_alg».proof.Proof.Gen.KernelIdeal.Frame
import proofs.«146466_j70300024701273_2_alg».proof.Proof.Pieces
import Idealize.ShloMosaic.Lib.ValueIdx
import Idealize.ShloMosaic.Lib.Pipeline.Value

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- Each window's block index at every grid point: the expert is t / 4 on the leading axis, the hidden tile t % 4 on
    the contraction axis of the tokens and of the gate and up weights, zero elsewhere. -/
theorem idx_facts : ∀ t : Fin cfg0.N,
    (win0_0.index t (0 : Fin 3) = t.val / 4 ∧ win0_0.index t (1 : Fin 3) = 0 ∧ win0_0.index t (2 : Fin 3) = t.val % 4)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = 0 ∧ win0_3.index t (2 : Fin 3) = 0)
    ∧ (win0_4.index t (0 : Fin 3) = t.val / 4 ∧ win0_4.index t (1 : Fin 3) = 0 ∧ win0_4.index t (2 : Fin 3) = 0) :=
  (by decide +kernel : ∀ t : Fin grid0.N, _)

/-- The token tile's entry (row, position) is the grouped tokens' entry at hidden feature 512·tile + position. -/
theorem tokens_at (c : Dev nD) (t : Fin cfg0.N) (y1 : Fin 16) (y2 : Fin 512) (e : Fin 64) (z1 : Fin 16) (z2 : Fin 2048)
    (he : e.val = t.val / 4) (h1 : z1 = y1) (h2 : z2.val = 512 * (t.val % 4) + y2.val) :
    (iblk m c 0 t : Vec F S1x16x512 .f32) (ix3 (0 : Fin 1) y1 y2) = V m c main_v0 (ix3 e z1 z2) := by
  obtain ⟨f0, f1, f2, f3, f4⟩ := idx_facts t
  obtain ⟨g0, g1, g2⟩ := f0
  unfold iblk
  rw [View.read_apply]
  show V m c main_v0 _ = V m c main_v0 _
  refine congrArg (V m c main_v0) (funext fun d => Fin.ext ?_)
  match d with
  | ⟨0, _⟩ => show win0_0.index t (0 : Fin 3) * 1 + 1 * 0 = e.val; rw [g0, he]; omega
  | ⟨1, _⟩ => show win0_0.index t (1 : Fin 3) * 16 + 1 * y1.val = z1.val; rw [g1, h1]; omega
  | ⟨2, _⟩ => show win0_0.index t (2 : Fin 3) * 512 + 1 * y2.val = z2.val; rw [g2, h2]; omega

/-- The gate tile's entry (position, feature) is the gate weights' entry at hidden feature 512·tile + position. -/
theorem gate_at (c : Dev nD) (t : Fin cfg0.N) (y1 : Fin 512) (y2 : Fin 1408) (e : Fin 64) (z1 : Fin 2048) (z2 : Fin 1408)
    (he : e.val = t.val / 4) (h1 : z1.val = 512 * (t.val % 4) + y1.val) (h2 : z2 = y2) :
    (iblk m c 1 t : Vec F S1x512x1408 .f32) (ix3 (0 : Fin 1) y1 y2) = V m c main_arg1 (ix3 e z1 z2) := by
  obtain ⟨f0, f1, f2, f3, f4⟩ := idx_facts t
  obtain ⟨g0, g1, g2⟩ := f1
  unfold iblk
  rw [View.read_apply]
  show V m c main_arg1 _ = V m c main_arg1 _
  refine congrArg (V m c main_arg1) (funext fun d => Fin.ext ?_)
  match d with
  | ⟨0, _⟩ => show win0_1.index t (0 : Fin 3) * 1 + 1 * 0 = e.val; rw [g0, he]; omega
  | ⟨1, _⟩ => show win0_1.index t (1 : Fin 3) * 512 + 1 * y1.val = z1.val; rw [g1, h1]; omega
  | ⟨2, _⟩ => show win0_1.index t (2 : Fin 3) * 1408 + 1 * y2.val = z2.val; rw [g2, h2]; omega

/-- The same for the up weights. -/
theorem up_at (c : Dev nD) (t : Fin cfg0.N) (y1 : Fin 512) (y2 : Fin 1408) (e : Fin 64) (z1 : Fin 2048) (z2 : Fin 1408)
    (he : e.val = t.val / 4) (h1 : z1.val = 512 * (t.val % 4) + y1.val) (h2 : z2 = y2) :
    (iblk m c 2 t : Vec F S1x512x1408 .f32) (ix3 (0 : Fin 1) y1 y2) = V m c main_arg2 (ix3 e z1 z2) := by
  obtain ⟨f0, f1, f2, f3, f4⟩ := idx_facts t
  obtain ⟨g0, g1, g2⟩ := f2
  unfold iblk
  rw [View.read_apply]
  show V m c main_arg2 _ = V m c main_arg2 _
  refine congrArg (V m c main_arg2) (funext fun d => Fin.ext ?_)
  match d with
  | ⟨0, _⟩ => show win0_2.index t (0 : Fin 3) * 1 + 1 * 0 = e.val; rw [g0, he]; omega
  | ⟨1, _⟩ => show win0_2.index t (1 : Fin 3) * 512 + 1 * y1.val = z1.val; rw [g1, h1]; omega
  | ⟨2, _⟩ => show win0_2.index t (2 : Fin 3) * 1408 + 1 * y2.val = z2.val; rw [g2, h2]; omega

/-- The down block is the expert's whole slab of the down weights. -/
theorem down_at (c : Dev nD) (t : Fin cfg0.N) (y1 : Fin 1408) (y2 : Fin 2048) (e : Fin 64) (z1 : Fin 1408) (z2 : Fin 2048)
    (he : e.val = t.val / 4) (h1 : z1 = y1) (h2 : z2 = y2) :
    (iblk m c 3 t : Vec F S1x1408x2048 .f32) (ix3 (0 : Fin 1) y1 y2) = V m c main_arg3 (ix3 e z1 z2) := by
  obtain ⟨f0, f1, f2, f3, f4⟩ := idx_facts t
  obtain ⟨g0, g1, g2⟩ := f3
  unfold iblk
  rw [View.read_apply]
  show V m c main_arg3 _ = V m c main_arg3 _
  refine congrArg (V m c main_arg3) (funext fun d => Fin.ext ?_)
  match d with
  | ⟨0, _⟩ => show win0_3.index t (0 : Fin 3) * 1 + 1 * 0 = e.val; rw [g0, he]; omega
  | ⟨1, _⟩ => show win0_3.index t (1 : Fin 3) * 1408 + 1 * y1.val = z1.val; rw [g1, h1]; omega
  | ⟨2, _⟩ => show win0_3.index t (2 : Fin 3) * 2048 + 1 * y2.val = z2.val; rw [g2, h2]; omega

/-- The first chunk of the down block, entry (f, h): the block's entry (f, h). -/
theorem downLo_at (x3 : Vec F S1x1408x2048 .f32) (f : Fin 768) (h : Fin 2048) :
    Pieces.downLo x3 (ix3 (0 : Fin 1) f h) = x3 (ix3 (0 : Fin 1) ⟨f.val, by have := f.isLt; omega⟩ h) := by
  show x3 _ = x3 _
  refine congrArg x3 (funext fun d => Fin.ext ?_)
  match d with
  | ⟨0, _⟩ => rfl
  | ⟨1, _⟩ => show 0 + 1 * f.val = f.val; omega
  | ⟨2, _⟩ => show 0 + 1 * h.val = h.val; omega

/-- The second chunk's entry (f, h): the block's entry (768 + f, h). -/
theorem downHi_at (x3 : Vec F S1x1408x2048 .f32) (f : Fin 640) (h : Fin 2048) :
    Pieces.downHi x3 (ix3 (0 : Fin 1) f h) = x3 (ix3 (0 : Fin 1) ⟨768 + f.val, by have := f.isLt; omega⟩ h) := by
  show x3 _ = x3 _
  refine congrArg x3 (funext fun d => Fin.ext ?_)
  match d with
  | ⟨0, _⟩ => rfl
  | ⟨1, _⟩ => show 768 + 1 * f.val = 768 + f.val; omega
  | ⟨2, _⟩ => show 0 + 1 * h.val = h.val; omega

end Cert.KernelIdeal.Blocks

end
-- ==== Proof.Accum.lean ====
/-
  The accumulators hold partial projections. After grid point t (expert t / 4, hidden tile t % 4) the gate accumulator's
  entry (p, q) is the sum of x[e, p, k] · gate[e, k, q] over the first 512·(t % 4 + 1) hidden features k, and the up
  accumulator's the same with the up weights: zero plus the first tile at an expert's first point, one more tile added at
  each later point. After the expert's fourth tile these are the whole projections, and the output block written there is
  the specification's result for that expert: the two chunks of the last product make up the sum over all 1408
  intermediate features.
-/
import proofs.«146466_j70300024701273_2_alg».proof.Proof.Chain
import proofs.«146466_j70300024701273_2_alg».proof.Proof.Payload
import proofs.«146466_j70300024701273_2_alg».proof.Proof.Blocks
import proofs.«146466_j70300024701273_2_alg».proof.Proof.Spec

noncomputable section

namespace Cert.KernelIdeal.Accum

open Idealize.ShloMosaic Idealize.ShloMosaic.TcCoe Idealize.SL.Sem Idealize.ShloMosaic.ValueIdx
open Cert.KernelIdeal Cert.KernelIdeal.Gen Cert.MoeSpec

variable (m : (ℓ : Loc nD τ sig) → Buf (Elt Ideal) ℓ)

/-- One product of a tile is the projection's summand at position 512·tile + k, when the token tile and the weight tile
    are the arrays read at that position. -/
theorem tile_term (xe : SX.Idx → EReal) (w : SW.Idx → EReal) (x0 : Vec Ideal S1x16x512 .f32) (x1 : Vec Ideal S1x512x1408 .f32)
    (e : Fin 64) (p : Fin 16) (q : Fin 1408) (hh : ℕ) (hh4 : hh < 4) (k : Fin 512)
    (h0 : ∀ kk : Fin 2048, kk.val = 512 * hh + k.val → x0 (ix3 (0 : Fin 1) p k) = xe (ix3 e p kk))
    (h1 : ∀ kk : Fin 2048, kk.val = 512 * hh + k.val → x1 (ix3 (0 : Fin 1) k q) = w (ix3 e kk q)) :
    x0 (ix3 (0 : Fin 1) p k) * x1 (ix3 (0 : Fin 1) k q) = term xe w e p q (512 * hh + k.val) := by
  have hk : 512 * hh + k.val < 2048 := by have := k.isLt; omega
  unfold term
  rw [dif_pos hk]
  exact congrArg₂ (· * ·) (h0 ⟨_, hk⟩ rfl) (h1 ⟨_, hk⟩ rfl)

/-- The gate accumulator's update at point t: from the partial projection up to the tile to the one past it. -/
theorem gate_step (c : Dev nD) (t : Fin cfg0.N) (e : Fin 64) (he : e.val = t.val / 4) (p : Fin 16) (q : Fin 1408)
    (prev : Vec Ideal S16x1408 .f32)
    (hprev : prev (ix2 p q) = partialProj (V m c main_v0) (V m c main_arg1) e p q (512 * (t.val % 4))) :
    k0_pay4 (iblk m c 0 t) (iblk m c 1 t) prev (ix2 p q)
      = partialProj (V m c main_v0) (V m c main_arg1) e p q (512 * (t.val % 4 + 1)) := by
  refine (Payload.gate_update (iblk m c 0 t) (iblk m c 1 t) prev p q).trans ?_
  rw [hprev]
  exact partialProj_add_tile _ _ e p q (t.val % 4) _ (fun k =>
    tile_term (V m c main_v0) (V m c main_arg1) (iblk m c 0 t) (iblk m c 1 t) e p q (t.val % 4) (Nat.mod_lt _ (by decide)) k
      (fun kk hk => Blocks.tokens_at m c t p k e p kk he rfl hk) (fun kk hk => Blocks.gate_at m c t k q e kk q he hk rfl))

/-- The up accumulator's update at point t: from the partial projection up to the tile to the one past it. -/
theorem up_step (c : Dev nD) (t : Fin cfg0.N) (e : Fin 64) (he : e.val = t.val / 4) (p : Fin 16) (q : Fin 1408)
    (prev : Vec Ideal S16x1408 .f32)
    (hprev : prev (ix2 p q) = partialProj (V m c main_v0) (V m c main_arg2) e p q (512 * (t.val % 4))) :
    k0_pay5 (iblk m c 0 t) (iblk m c 2 t) prev (ix2 p q)
      = partialProj (V m c main_v0) (V m c main_arg2) e p q (512 * (t.val % 4 + 1)) := by
  refine (Payload.up_update (iblk m c 0 t) (iblk m c 2 t) prev p q).trans ?_
  rw [hprev]
  exact partialProj_add_tile _ _ e p q (t.val % 4) _ (fun k =>
    tile_term (V m c main_v0) (V m c main_arg2) (iblk m c 0 t) (iblk m c 2 t) e p q (t.val % 4) (Nat.mod_lt _ (by decide)) k
      (fun kk hk => Blocks.tokens_at m c t p k e p kk he rfl hk) (fun kk hk => Blocks.up_at m c t k q e kk q he hk rfl))

/-- What both accumulators hold at (p, q) after point n, for the expert e = n / 4. -/
def Holds (c : Dev nD) (n : ℕ) (hn : n < cfg0.N) (e : Fin 64) (p : Fin 16) (q : Fin 1408) : Prop :=
  (outsAt0 m c n hn).2.1 (ix2 p q) = partialProj (V m c main_v0) (V m c main_arg1) e p q (512 * (n % 4 + 1))
  ∧ (outsAt0 m c n hn).2.2 (ix2 p q) = partialProj (V m c main_v0) (V m c main_arg2) e p q (512 * (n % 4 + 1))

/-- At an expert's first tile: zero plus the first 512 products. -/
theorem first_tile (c : Dev nD) (t : Fin cfg0.N) (h0 : t.val % 4 = 0) (e : Fin 64) (he : e.val = t.val / 4)
    (p : Fin 16) (q : Fin 1408) : Holds m c t.val t.isLt e p q := by
  obtain ⟨e1, e2⟩ := Chain.acc_first m c t h0
  have z1 : k0_pay1 (F := Ideal) (ix2 p q) = partialProj (V m c main_v0) (V m c main_arg1) e p q (512 * (t.val % 4)) := by
    rw [h0]; exact (Payload.gate_zero _).trans (partialProj_zero _ _ e p q).symm
  have z2 : k0_pay2 (F := Ideal) (ix2 p q) = partialProj (V m c main_v0) (V m c main_arg2) e p q (512 * (t.val % 4)) := by
    rw [h0]; exact (Payload.up_zero _).trans (partialProj_zero _ _ e p q).symm
  exact ⟨(congrFun e1 (ix2 p q)).trans (gate_step m c t e he p q _ z1),
    (congrFun e2 (ix2 p q)).trans (up_step m c t e he p q _ z2)⟩

/-- At a later tile: one more tile on top of what the point before left. -/
theorem later_tile (c : Dev nD) (t : Fin cfg0.N) (h0 : ¬t.val % 4 = 0) (e : Fin 64) (he : e.val = t.val / 4)
    (p : Fin 16) (q : Fin 1408)
    (ih : Holds m c (t.val - 1) (Nat.lt_of_le_of_lt (Nat.sub_le _ _) t.isLt) e p q) : Holds m c t.val t.isLt e p q := by
  obtain ⟨e1, e2⟩ := Chain.acc_next m c t h0
  obtain ⟨i1, i2⟩ := ih
  have hh : (t.val - 1) % 4 + 1 = t.val % 4 := by omega
  rw [hh] at i1 i2
  exact ⟨(congrFun e1 (ix2 p q)).trans (gate_step m c t e he p q _ i1),
    (congrFun e2 (ix2 p q)).trans (up_step m c t e he p q _ i2)⟩

/-- The invariant at every point, by induction on the point. -/
theorem holds (c : Dev nD) : ∀ (n : ℕ) (hn : n < cfg0.N) (e : Fin 64) (_ : e.val = n / 4) (p : Fin 16) (q : Fin 1408),
    Holds m c n hn e p q
  | 0, hn, e, he, p, q => first_tile m c ⟨0, hn⟩ rfl e he p q
  | n + 1, hn, e, he, p, q => by
    by_cases h0 : (n + 1) % 4 = 0
    · exact first_tile m c ⟨n + 1, hn⟩ h0 e he p q
    · exact later_tile m c ⟨n + 1, hn⟩ h0 e he p q (holds c n (Nat.lt_of_succ_lt hn) e (by omega) p q)

/-- After an expert's last tile the accumulators are the whole projections. -/
theorem full (c : Dev nD) (t : Fin cfg0.N) (h1 : t.val % 4 = 3) (e : Fin 64) (he : e.val = t.val / 4)
    (p : Fin 16) (q : Fin 1408) :
    (outsAt0 m c t.val t.isLt).2.1 (ix2 p q) = proj (V m c main_v0) (V m c main_arg1) (ix3 e p q)
    ∧ (outsAt0 m c t.val t.isLt).2.2 (ix2 p q) = proj (V m c main_v0) (V m c main_arg2) (ix3 e p q) := by
  obtain ⟨i1, i2⟩ := holds m c t.val t.isLt e he p q
  rw [h1] at i1 i2
  exact ⟨i1.trans (partialProj_full _ _ e p q), i2.trans (partialProj_full _ _ e p q)⟩

/-- The output block written at an expert's last tile, entry (p, h): the specification's result at (e, p, h). -/
theorem out_block (c : Dev nD) (t : Fin cfg0.N) (h1 : t.val % 4 = 3) (e : Fin 64) (he : e.val = t.val / 4)
    (p : Fin 16) (h : Fin 2048) :
    (outsAt0 m c t.val t.isLt).1 (ix3 (0 : Fin 1) p h)
      = out (V m c main_v0) (V m c main_arg1) (V m c main_arg2) (V m c main_arg3) (ix3 e p h) := by
  refine (congrFun (Chain.out_last m c t h1) (ix3 (0 : Fin 1) p h)).trans ?_
  refine (Payload.finish (outsAt0 m c t.val t.isLt).2.1 (outsAt0 m c t.val t.isLt).2.2
    (Pieces.downLo (iblk m c 3 t)) (Pieces.downHi (iblk m c 3 t)) p h).trans ?_
  refine Eq.trans ?_ ((sum_two_chunks fun f : Fin 1408 =>
    act (proj (V m c main_v0) (V m c main_arg1) (ix3 e p f)) (proj (V m c main_v0) (V m c main_arg2) (ix3 e p f))
      * V m c main_arg3 (ix3 e f h)).trans rfl)
  refine congrArg₂ (· + ·) (congrArg (0 + ·) (Finset.sum_congr rfl fun f _ => ?_)) (Finset.sum_congr rfl fun f _ => ?_)
  · have hf : f.val < 1408 := by have := f.isLt; omega
    obtain ⟨a1, a2⟩ := full m c t h1 e he p ⟨f.val, hf⟩
    exact congrArg₂ (· * ·) (congrArg₂ act a1 a2)
      ((Blocks.downLo_at (iblk m c 3 t) f h).trans (Blocks.down_at m c t ⟨f.val, hf⟩ h e ⟨f.val, hf⟩ h he rfl rfl))
  · have hf : 768 + f.val < 1408 := by have := f.isLt; omega
    obtain ⟨a1, a2⟩ := full m c t h1 e he p ⟨768 + f.val, hf⟩
    exact congrArg₂ (· * ·) (congrArg₂ act a1 a2)
      ((Blocks.downHi_at (iblk m c 3 t) f h).trans (Blocks.down_at m c t ⟨768 + f.val, hf⟩ h e ⟨768 + f.val, hf⟩ h he rfl rfl))

end Cert.KernelIdeal.Accum

end
-- ==== Proof.Result.lean ====
/-
  The region's output array and the program's result. Output block e is written back once, at the expert's last hidden
  tile (grid point 4·e + 3), and holds the specification's result for expert e; the 64 blocks tile the [64, 16, 2048]
  array, so after the run the array is the specification's result of the arrays the region found. The tokens it found
  are the argument regrouped by expert (the reshape before the region), and the program's result is that array flattened
  back to [1024, 2048] (the reshape after it).
-/
import proofs.«146466_j70300024701273_2_alg».proof.Proof.Accum
import Idealize.ShloMosaic.Lib.Pipeline.Value
import Idealize.ShloMosaic.Lib.StableHlo.Run
import Idealize.ShloMosaic.Lib.Tactic

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.MoeSpec

variable (m : (ℓ : Loc nD τ sig) → Buf (Elt Ideal) ℓ) (ρ : Dev nD → PrngReg)

/-- The region's output array once every expert's block is written back. -/
abbrev regionOut (c : Dev nD) : Buf (Elt Ideal) ((c : Thread nD τ).loc main_v1) :=
  out (V m c main_v0) (V m c main_arg1) (V m c main_arg2) (V m c main_arg3)

/-- What an expert's last point writes back is that expert's block of the specification's result. -/
theorem flushed_eq (c : Dev nD) (t : Fin cfg0.N) (hf : (cfg0.win 4).flush t = true) :
    (dats m 0 c).flushed 4 t = ((cfg0.win 4).blk t).view.read (Elt Ideal) (regionOut m c) := by
  have h1 : t.val % 4 = 3 := (flush0_4 t).mp hf
  have hN : t.val < 256 := lt_of_lt_of_eq t.isLt (show cfg0.N = 256 from N_0)
  obtain ⟨-, -, -, -, g0, g1, g2⟩ := Blocks.idx_facts t
  show (cfg0.win 4).cut (grid0.coords t) ((dats m 0 c).after 4 t) = _
  rw [after0_4]
  refine funext fun (j : S1x16x2048.Idx) => ?_
  obtain ⟨z, p, h, rfl⟩ : ∃ (z : Fin 1) (p : Fin 16) (h : Fin 2048), j = ix3 z p h := ⟨j 0, j 1, j 2, eq_ix3 j⟩
  obtain rfl : z = 0 := Fin.ext (by have := z.isLt; omega)
  show (outsAt0 m c t.val t.isLt).1 (ix3 (0 : Fin 1) p h)
    = regionOut m c (((cfg0.win 4).blk t).view.emb (ix3 (0 : Fin 1) p h))
  have hemb : ((cfg0.win 4).blk t).view.emb (ix3 (0 : Fin 1) p h) = ix3 (⟨t.val / 4, by omega⟩ : Fin 64) p h := by
    refine funext fun d => Fin.ext ?_
    match d with
    | ⟨0, _⟩ => show win0_4.index t (0 : Fin 3) * 1 + 1 * 0 = t.val / 4; rw [g0]; omega
    | ⟨1, _⟩ => show win0_4.index t (1 : Fin 3) * 16 + 1 * p.val = p.val; rw [g1]; omega
    | ⟨2, _⟩ => show win0_4.index t (2 : Fin 3) * 2048 + 1 * h.val = h.val; rw [g2]; omega
  rw [hemb]
  exact Accum.out_block m c t h1 ⟨t.val / 4, by omega⟩ rfl p h

/-- An index of the output array is in point t's block iff each coordinate is in the block's range. -/
theorem mem_blk (t : Fin cfg0.N) (i : S64x16x2048.Idx) :
    i ∈ ((cfg0.win 4).blk t).view.set ↔ ∀ a : Fin 3, win0_4.index t a * S1x16x2048.size a ≤ (i a).val
      ∧ (i a).val < win0_4.index t a * S1x16x2048.size a + S1x16x2048.size a := by
  show i ∈ ((View.whole main_v1).slice (win0_4.rect t)).set ↔ _
  rw [View.set_slice_whole, Rect.mem_set_unit]
  exact Iff.rfl

/-- Row block e of the output array is written at grid point 4·e + 3. -/
theorem cover (i : S64x16x2048.Idx) :
    ∃ t : Fin cfg0.N, (cfg0.win 4).flush t = true ∧ i ∈ ((cfg0.win 4).blk t).view.set := by
  have hi0 : (i 0).val < 64 := (i 0).isLt
  have hi1 : (i 1).val < 16 := (i 1).isLt
  have hi2 : (i 2).val < 2048 := (i 2).isLt
  have hN : cfg0.N = 256 := N_0
  have hlt : 4 * (i 0).val + 3 < cfg0.N := by rw [hN]; omega
  obtain ⟨-, -, -, -, g0, g1, g2⟩ := Blocks.idx_facts ⟨4 * (i 0).val + 3, hlt⟩
  refine ⟨⟨4 * (i 0).val + 3, hlt⟩, (flush0_4 _).mpr (by show (4 * (i 0).val + 3) % 4 = 3; omega), ?_⟩
  rw [mem_blk]
  intro a
  match a with
  | ⟨0, _⟩ =>
    show win0_4.index ⟨4 * (i 0).val + 3, hlt⟩ (0 : Fin 3) * 1 ≤ (i 0).val
      ∧ (i 0).val < win0_4.index ⟨4 * (i 0).val + 3, hlt⟩ (0 : Fin 3) * 1 + 1
    rw [g0]; show (4 * (i 0).val + 3) / 4 * 1 ≤ (i 0).val ∧ (i 0).val < (4 * (i 0).val + 3) / 4 * 1 + 1; omega
  | ⟨1, _⟩ =>
    show win0_4.index ⟨4 * (i 0).val + 3, hlt⟩ (1 : Fin 3) * 16 ≤ (i 1).val
      ∧ (i 1).val < win0_4.index ⟨4 * (i 0).val + 3, hlt⟩ (1 : Fin 3) * 16 + 16
    rw [g1]; omega
  | ⟨2, _⟩ =>
    show win0_4.index ⟨4 * (i 0).val + 3, hlt⟩ (2 : Fin 3) * 2048 ≤ (i 2).val
      ∧ (i 2).val < win0_4.index ⟨4 * (i 0).val + 3, hlt⟩ (2 : Fin 3) * 2048 + 2048
    rw [g2]; omega

/-- The output array after the run. -/
theorem final (c : Dev nD) : (dats m 0 c).arrAt 4 cfg0.N = regionOut m c :=
  (dats m 0 c).arrAt_eq_of_cover 4 (regionOut m c) (flushed_eq m c) cover

/-- The tokens the region finds: the argument regrouped by expert. -/
theorem tokens_grouped (c : Dev nD) :
    (V m c main_v0 : S64x16x2048.Idx → EReal)
      = shapeCast S64x16x2048 (m ((c : Thread nD τ).loc main_arg0)) shapeCasts_S1024x2048_S64x16x2048 := by
  show StableHlo.after hostOps0 (fun b => m (c, b)) (Proc.devRef .tc main_v0) = _
  after_results
  rfl

/-- The program's result as a function of the four float arguments. -/
abbrev result (a0 : S1024x2048.Idx → EReal) (a1 a2 : S64x2048x1408.Idx → EReal) (a3 : S64x1408x2048.Idx → EReal) :
    S1024x2048.Idx → EReal :=
  shapeCast S1024x2048 (out (shapeCast S64x16x2048 a0 shapeCasts_S1024x2048_S64x16x2048) a1 a2 a3)
    shapeCasts_S64x16x2048_S1024x2048

/-- The result buffer after the reshape that follows the region. -/
theorem tail (c : Dev nD) :
    Pipeline.afterTail₀ cfgs (dats m) 0 (V0 m) [hostOps1] c main_v2
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v2) = _
  after_results
  have hw : Pipeline.withArrays spec0 c (V0 m c) (fun w => (dats m 0 c).arrAt w cfg0.N)
      (Proc.devRef .tc (Pipeline.arrRef spec0 4)) = regionOut m c :=
    (Pipeline.withArrays_arr spec0 launch0.win.arr_inj c (V0 m c) (fun w => (dats m 0 c).arrAt w cfg0.N) 4).trans (final m c)
  have hx : regionOut m c
      = out (shapeCast S64x16x2048 (m ((c : Thread nD τ).loc main_arg0)) shapeCasts_S1024x2048_S64x16x2048)
          (m ((c : Thread nD τ).loc main_arg1)) (m ((c : Thread nD τ).loc main_arg2)) (m ((c : Thread nD τ).loc main_arg3)) := by
    show out (V m c main_v0) (V m c main_arg1) (V m c main_arg2) (V m c main_arg3) = _
    rw [tokens_grouped m c, V_main_arg1 m c, V_main_arg2 m c, V_main_arg3 m c]
  exact congrArg (fun x => shapeCast S1024x2048 x shapeCasts_S64x16x2048_S1024x2048) (hw.trans hx)

/-- The run, read: the result buffer at the specification's result of the arguments, the arguments unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (tail m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.RefSide.lean ====
/-
  The reference computes the specification: its grouped products are the projections, its expansion of SiLU
  (x times one over one plus the exponential of minus x) times the up branch is `act`, and its last product is `out`,
  all at the expert-grouped layout [64, 16, ·] between its two reshapes.
-/
import proofs.«146466_j70300024701273_2_alg».proof.Proof.Gen.ReferenceIdeal.Read
import proofs.«146466_j70300024701273_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Read Cert.MoeSpec

/-- The literal the reference adds and divides: the word of 1.0 denotes the real 1. -/
theorem one_f32 : Ideal.ofBits .f32 0x3F800000#32 = 1 := by
  simp [Ideal.ofBits, Ideal.ieee, -EReal.coe_mul]; norm_num

/-- One over one plus the exponential of the negation, in the host's operations, is the logistic function. -/
theorem host_logistic (a : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) a)))
      = Ideal.logistic a := by
  rw [one_f32]; rfl

/-- A grouped product of the tokens with a weight array is that weight's projection. -/
theorem proj_v1 (x0 : (⟨S1024x2048, .f32⟩ : BufTy).Contents (Elt Ideal)) (x1 : (⟨S64x2048x1408, .f32⟩ : BufTy).Contents (Elt Ideal))
    (j : S64x16x1408.Idx) :
    val_main_v1 (F := Ideal) x0 x1 j = proj (val_main_v0 (F := Ideal) x0) x1 j := by
  rw [val_main_v1_apply]
  unfold proj
  refine Finset.sum_congr rfl fun k _ => ?_
  have el : lidx_main_v1 j k = ix3 (j 0) (j 1) k :=
    funext fun a => Fin.ext (by match a with | ⟨0, _⟩ => rfl | ⟨1, _⟩ => rfl | ⟨2, _⟩ => rfl)
  have er : ridx_main_v1 j k = ix3 (j 0) k (j 2) :=
    funext fun a => Fin.ext (by match a with | ⟨0, _⟩ => rfl | ⟨1, _⟩ => rfl | ⟨2, _⟩ => rfl)
  exact congrArg₂ (· * ·) (congrArg _ el) (congrArg _ er)

theorem proj_v2 (x0 : (⟨S1024x2048, .f32⟩ : BufTy).Contents (Elt Ideal)) (x2 : (⟨S64x2048x1408, .f32⟩ : BufTy).Contents (Elt Ideal))
    (j : S64x16x1408.Idx) :
    val_main_v2 (F := Ideal) x0 x2 j = proj (val_main_v0 (F := Ideal) x0) x2 j := by
  rw [val_main_v2_apply]
  unfold proj
  refine Finset.sum_congr rfl fun k _ => ?_
  have el : lidx_main_v2 j k = ix3 (j 0) (j 1) k :=
    funext fun a => Fin.ext (by match a with | ⟨0, _⟩ => rfl | ⟨1, _⟩ => rfl | ⟨2, _⟩ => rfl)
  have er : ridx_main_v2 j k = ix3 (j 0) k (j 2) :=
    funext fun a => Fin.ext (by match a with | ⟨0, _⟩ => rfl | ⟨1, _⟩ => rfl | ⟨2, _⟩ => rfl)
  exact congrArg₂ (· * ·) (congrArg _ el) (congrArg _ er)

/-- The gated activation the reference multiplies into the last product. -/
theorem act_v4 (x0 : (⟨S1024x2048, .f32⟩ : BufTy).Contents (Elt Ideal)) (x1 x2 : (⟨S64x2048x1408, .f32⟩ : BufTy).Contents (Elt Ideal))
    (j : S64x16x1408.Idx) :
    val_main_v4 (F := Ideal) x0 x1 x2 j
      = act (proj (val_main_v0 (F := Ideal) x0) x1 j) (proj (val_main_v0 (F := Ideal) x0) x2 j) := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, proj_v1, proj_v2]
  show FloatOps.mulf (F := Ideal) (φ := .f32) (FloatOps.mulf (F := Ideal) (φ := .f32) _ (FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) _))))) _ = _
  rw [host_logistic]
  rfl

/-- The reference between its two reshapes is the specification's result of the regrouped tokens. -/
theorem ref_mid (x0 : (⟨S1024x2048, .f32⟩ : BufTy).Contents (Elt Ideal)) (x1 x2 : (⟨S64x2048x1408, .f32⟩ : BufTy).Contents (Elt Ideal))
    (x3 : (⟨S64x1408x2048, .f32⟩ : BufTy).Contents (Elt Ideal)) :
    val_main_v5 (F := Ideal) x0 x1 x2 x3 = out (val_main_v0 (F := Ideal) x0) x1 x2 x3 := by
  funext i
  obtain ⟨e, p, h, rfl⟩ : ∃ (e : Fin 64) (p : Fin 16) (h : Fin 2048), i = ix3 e p h := ⟨i 0, i 1, i 2, eq_ix3 i⟩
  rw [val_main_v5_apply]
  show _ = ∑ f : Fin 1408, act (proj (val_main_v0 (F := Ideal) x0) x1 (ix3 e p f))
    (proj (val_main_v0 (F := Ideal) x0) x2 (ix3 e p f)) * x3 (ix3 e f h)
  refine Finset.sum_congr rfl fun f _ => ?_
  have el : lidx_main_v5 (ix3 e p h) f = (ix3 e p f : S64x16x1408.Idx) :=
    funext fun a => Fin.ext (by match a with | ⟨0, _⟩ => rfl | ⟨1, _⟩ => rfl | ⟨2, _⟩ => rfl)
  have er : ridx_main_v5 (ix3 e p h) f = (ix3 e f h : S64x1408x2048.Idx) :=
    funext fun a => Fin.ext (by match a with | ⟨0, _⟩ => rfl | ⟨1, _⟩ => rfl | ⟨2, _⟩ => rfl)
  rw [el, er, act_v4]

end Cert.ReferenceIdeal.RefValue

end
-- ==== Proof.lean ====
/-
  A grouped feed-forward block over 64 experts of 16 token rows each. For expert e, row p:
    gate = x[e, p, ·] · gateW[e]   and   up = x[e, p, ·] · upW[e]          (sums over 2048 hidden features),
    hidden = gate · logistic(gate) · up                                       (1408 intermediate features),
    result[e, p, ·] = hidden · downW[e]                                       (a sum over those 1408 features),
  on tokens regrouped from [1024, 2048] to [64, 16, 2048] and flattened back at the end.

  The kernel walks a grid of (expert, hidden tile): it adds each 512-wide tile's partial products to two accumulators,
  zeroed at an expert's first tile, and at the fourth tile forms the gated activation and multiplies by the down weights
  in two chunks of 768 and 640 features added to zero. The reference takes each product as one sum and spells the
  logistic as one over one plus the exponential of the negation. Over the extended reals these are one function: sums of
  finitely many terms may be regrouped freely (addition is commutative and associative there, infinities included), a
  change of float format is the identity, and the two spellings of the logistic denote the same function. No finiteness
  of the inputs is used; the integer argument is read by neither program.

  The three programs run without fault and leave their arguments unchanged (the kernel's two frames are the generated
  ones, the reference's is its run with the result dropped); the idealization rewrote nothing.
-/
import proofs.«146466_j70300024701273_2_alg».proof.Defs
import proofs.«146466_j70300024701273_2_alg».proof.Proof.Gen.Kernel
import proofs.«146466_j70300024701273_2_alg».proof.Proof.Gen.Kernel.Skeleton
import proofs.«146466_j70300024701273_2_alg».proof.Proof.Gen.Kernel.Launch
import proofs.«146466_j70300024701273_2_alg».proof.Proof.Gen.Kernel.Points
import proofs.«146466_j70300024701273_2_alg».proof.Proof.Gen.Kernel.Frame
import proofs.«146466_j70300024701273_2_alg».proof.Proof.Gen.KernelIdeal
import proofs.«146466_j70300024701273_2_alg».proof.Proof.Gen.KernelIdeal.Skeleton
import proofs.«146466_j70300024701273_2_alg».proof.Proof.Gen.KernelIdeal.Launch
import proofs.«146466_j70300024701273_2_alg».proof.Proof.Gen.KernelIdeal.Points
import proofs.«146466_j70300024701273_2_alg».proof.Proof.Gen.KernelIdeal.Frame
import proofs.«146466_j70300024701273_2_alg».proof.Proof.Gen.ReferenceIdeal
import proofs.«146466_j70300024701273_2_alg».proof.Proof.Gen.ReferenceIdeal.Run
import proofs.«146466_j70300024701273_2_alg».proof.Proof.Gen.ReferenceIdeal.Read
import proofs.«146466_j70300024701273_2_alg».proof.Proof.Gen.Pre_finite_inputs
import proofs.«146466_j70300024701273_2_alg».proof.Proof.Result
import proofs.«146466_j70300024701273_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the specification's result of the (agreeing) arguments: the kernel by
    its accumulation over the grid, the reference operation by operation. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2.1]
  show shapeCast _ (Cert.ReferenceIdeal.Read.val_main_v5 (F := Ideal) _ _ _ _) _ = _
  rw [Cert.ReferenceIdeal.RefValue.ref_mid]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
